-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x80x128x128 : Shape := ⟨4, ![16, 80, 128, 128]⟩
abbrev S_ : Shape := ⟨0, ![]⟩

class Facts : Prop where
  bcast_S_S16x80x128x128 : S_.BroadcastsInDim S16x80x128x128 (![] : Fin 0 → Fin S16x80x128x128.rank)
  reducesTo_S16x80x128x128_S_d0_1_2_3 : S16x80x128x128.ReducesTo [0, 1, 2, 3] S_
  h_S_ : 0 < S_.numel

variable [Facts]

def fn {F : FTy → Type} [FloatOps F] (main_arg0 : FVec F S16x80x128x128 .f32) : IVec S_ 1 :=
  let main_v0 : FVec F S16x80x128x128 .f32 := Host.absf main_arg0
  let main_cst : FVec F S_ .f32 := constant S_ .f32 0x7F800000#32
  let main_v1 : FVec F S16x80x128x128 .f32 := broadcastInDim S16x80x128x128 ![] bcast_S_S16x80x128x128 main_cst
  let main_v2 : IVec S16x80x128x128 1 := cmpf .olt main_v0 main_v1
  let main_c : IVec S_ 1 := constantI S_ 1 1#1
  let main_v3 : IVec S_ 1 := (fun x v => Host.reduce IntOp.andi x v reducesTo_S16x80x128x128_S_d0_1_2_3 h_S_) main_v2 main_c
  main_v3
-- ==== Kernel.lean ====
abbrev S16x80x128x128 : Shape := ⟨4, ![16, 80, 128, 128]⟩
abbrev S1280x128x128 : Shape := ⟨3, ![1280, 128, 128]⟩
abbrev S16x128x128 : Shape := ⟨3, ![16, 128, 128]⟩
abbrev S16x130x130 : Shape := ⟨3, ![16, 130, 130]⟩

abbrev nBuf : Space → Nat
  | .hbm => 4
  | .vmem => 5
  | .smem => 0
  | _ => 0

abbrev bufTy : (tb : Table) → Fin (tcTables nBuf tb) → BufTy
  | .hbm, ⟨0, _⟩ => ⟨S16x80x128x128, .f32⟩
  | .hbm, ⟨1, _⟩ => ⟨S1280x128x128, .f32⟩
  | .hbm, ⟨2, _⟩ => ⟨S1280x128x128, .f32⟩
  | .hbm, ⟨3, _⟩ => ⟨S16x80x128x128, .f32⟩
  | .local _ .vmem, ⟨0, _⟩ => ⟨S16x128x128, .f32⟩
  | .local _ .vmem, ⟨1, _⟩ => ⟨S16x128x128, .f32⟩
  | .local _ .vmem, ⟨2, _⟩ => ⟨S16x128x128, .f32⟩
  | .local _ .vmem, ⟨3, _⟩ => ⟨S16x128x128, .f32⟩
  | .local _ .vmem, ⟨4, _⟩ => ⟨S16x130x130, .f32⟩
  | _, _ => ⟨S16x80x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![80], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S16x80x128x128_S1280x128x128 : S16x80x128x128.ShapeCasts S1280x128x128
  inb_S16x130x130_S16x130x130_0_0_0 : ∀ a, (![0, 0, 0] : Fin 3 → Nat) a + S16x130x130.size a ≤ S16x130x130.size a
  h_S16x130x130 : 0 < S16x130x130.numel
  shapeCasts_S16x130x130_S16x130x130 : S16x130x130.ShapeCasts S16x130x130
  inb_S16x128x128_S16x128x128_0_0_0 : ∀ a, (![0, 0, 0] : Fin 3 → Nat) a + S16x128x128.size a ≤ S16x128x128.size a
  h_S16x128x128 : 0 < S16x128x128.numel
  shapeCasts_S16x128x128_S16x128x128 : S16x128x128.ShapeCasts S16x128x128
  inb_S16x130x130_S16x128x128_0_1_1 : ∀ a, (![0, 1, 1] : Fin 3 → Nat) a + S16x128x128.size a ≤ S16x130x130.size a
  inb_S16x130x130_S16x128x128_0_0_0 : ∀ a, (![0, 0, 0] : Fin 3 → Nat) a + S16x128x128.size a ≤ S16x130x130.size a
  inb_S16x130x130_S16x128x128_0_0_1 : ∀ a, (![0, 0, 1] : Fin 3 → Nat) a + S16x128x128.size a ≤ S16x130x130.size a
  inb_S16x130x130_S16x128x128_0_0_2 : ∀ a, (![0, 0, 2] : Fin 3 → Nat) a + S16x128x128.size a ≤ S16x130x130.size a
  inb_S16x130x130_S16x128x128_0_1_0 : ∀ a, (![0, 1, 0] : Fin 3 → Nat) a + S16x128x128.size a ≤ S16x130x130.size a
  inb_S16x130x130_S16x128x128_0_1_2 : ∀ a, (![0, 1, 2] : Fin 3 → Nat) a + S16x128x128.size a ≤ S16x130x130.size a
  inb_S16x130x130_S16x128x128_0_2_0 : ∀ a, (![0, 2, 0] : Fin 3 → Nat) a + S16x128x128.size a ≤ S16x130x130.size a
  inb_S16x130x130_S16x128x128_0_2_1 : ∀ a, (![0, 2, 1] : Fin 3 → Nat) a + S16x128x128.size a ≤ S16x130x130.size a
  inb_S16x130x130_S16x128x128_0_2_2 : ∀ a, (![0, 2, 2] : Fin 3 → Nat) a + S16x128x128.size a ≤ S16x130x130.size a
  shapeCasts_S1280x128x128_S16x80x128x128 : S1280x128x128.ShapeCasts S16x80x128x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x128x128.size a ≤ S1280x128x128.size a
  hwx0_0 : ∀ i : grid0.Coords, EltTy.bits .f32 = 32 ∨ (Rect.block (s := S1280x128x128) S16x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x128x128.size a ≤ S1280x128x128.size a
  hwx0_1 : ∀ i : grid0.Coords, EltTy.bits .f32 = 32 ∨ (Rect.block (s := S1280x128x128) S16x128x128.size (cc0_transform_1 i) (hinb0_1 i)).WholeWords (EltTy.packing .f32)

variable [Facts₀]

abbrev win0_0 : Pipeline.Window sig grid0 :=
  Pipeline.Window.ofSpec (Memref.whole main_v0) S16x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x128x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x80x128x128 : Shape := ⟨4, ![16, 80, 128, 128]⟩
abbrev S_ : Shape := ⟨0, ![]⟩
abbrev S16x80x130x130 : Shape := ⟨4, ![16, 80, 130, 130]⟩

abbrev nBuf : Space → Nat
  | .hbm => 12
  | .vmem => 0
  | .smem => 0
  | _ => 0

abbrev bufTy : (tb : Table) → Fin (tcTables nBuf tb) → BufTy
  | .hbm, ⟨0, _⟩ => ⟨S16x80x128x128, .f32⟩
  | .hbm, ⟨1, _⟩ => ⟨S_, .f32⟩
  | .hbm, ⟨2, _⟩ => ⟨S_, .f32⟩
  | .hbm, ⟨3, _⟩ => ⟨S16x80x130x130, .f32⟩
  | .hbm, ⟨4, _⟩ => ⟨S_, .f32⟩
  | .hbm, ⟨5, _⟩ => ⟨S_, .f32⟩
  | .hbm, ⟨6, _⟩ => ⟨S16x80x128x128, .f32⟩
  | .hbm, ⟨7, _⟩ => ⟨S16x80x128x128, .i1⟩
  | .hbm, ⟨8, _⟩ => ⟨S_, .f32⟩
  | .hbm, ⟨9, _⟩ => ⟨S_, .f32⟩
  | .hbm, ⟨10, _⟩ => ⟨S16x80x128x128, .f32⟩
  | .hbm, ⟨11, _⟩ => ⟨S16x80x128x128, .f32⟩
  | _, _ => ⟨S16x80x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_call0_v0 : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_call1_v0 : Ref sig .tc := ⟨.hbm, 9, rfl⟩
abbrev main_call1_v1 : Ref sig .tc := ⟨.hbm, 10, rfl⟩
abbrev main_v4 : Ref sig .tc := ⟨.hbm, 11, rfl⟩

abbrev nD : Nat := 1
abbrev τ : Topo := Topo.v7x

variable {F : FTy → Type} [FloatOps F]

class Facts₀ : Prop where
  pads_S16x80x128x128_S16x80x130x130_000_000_110_110 : S16x80x128x128.Pads (![0, 0, 1, 1] : Fin 4 → Nat) ![0, 0, 1, 1] ![0, 0, 0, 0] S16x80x130x130
  h_S_ : 0 < S_.numel
  bcast_S_S_ : S_.BroadcastsInDim S_ (![] : Fin 0 → Fin S_.rank)
  reduceWindows_S16x80x130x130_S16x80x128x128_w1s1p0_0_w1s1p0_0_w3s1p0_0_w3s1p0_0 : S16x80x130x130.ReduceWindows (![1, 1, 3, 3] : Fin 4 → Nat) ![1, 1, 1, 1] ![0, 0, 0, 0] ![0, 0, 0, 0] S16x80x128x128
  bcast_S_S16x80x128x128 : S_.BroadcastsInDim S16x80x128x128 (![] : Fin 0 → Fin S16x80x128x128.rank)

variable [Facts₀]

class Facts : Prop extends Facts₀ where

variable [Facts]
-- ==== Proof.Spec.lean ====
/-
  Non-maximum suppression of one 128 × 128 image over the extended reals, as a function of the image alone.

  The image is read through its zero padding of width one (`padRead`): position `(y, x)` of the 130 × 130 padded
  image is the image's entry `(y - 1, x - 1)` when both coordinates lie in `1 … 128`, and the padding value
  otherwise. The local maximum at pixel `(h, w)` is the maximum of the nine padded entries `(h + a, w + b)`,
  `a, b ∈ {0, 1, 2}`, taken row by row (`max9`); the pixel is kept where it equals its local maximum and replaced
  by the padding value elsewhere (`keep`).

  A left fold of `max` from `-∞` over nine values is the chain of eight `max`es of those values, because `-∞` is
  the least extended real (`foldl_max_nine`).
-/
import Idealize.ShloMosaic.PureOps.Ideal
import Idealize.ShloMosaic.Lib.ValueIdx

noncomputable section

namespace Cert.Nms

open Idealize.ShloMosaic

/-- Entry `(y, x)` of the image padded by one position of `z` on every side. -/
def padRead (img : Fin 128 → Fin 128 → EReal) (z : EReal) (y x : ℕ) : EReal :=
  if h : (1 ≤ y ∧ y - 1 < 128) ∧ (1 ≤ x ∧ x - 1 < 128) then img ⟨y - 1, h.1.2⟩ ⟨x - 1, h.2.2⟩ else z

/-- Inside the image the padded entry is the image's. -/
theorem padRead_inside (img : Fin 128 → Fin 128 → EReal) (z : EReal) (p q : Fin 128) :
    padRead img z (p.val + 1) (q.val + 1) = img p q := by
  unfold padRead
  rw [dif_pos ⟨⟨by omega, by have := p.isLt; omega⟩, ⟨by omega, by have := q.isLt; omega⟩⟩]
  rfl

/-- Outside it the padded entry is the padding value. -/
theorem padRead_outside (img : Fin 128 → Fin 128 → EReal) (z : EReal) (y x : ℕ)
    (h : ¬((1 ≤ y ∧ y - 1 < 128) ∧ (1 ≤ x ∧ x - 1 < 128))) : padRead img z y x = z := by
  unfold padRead
  rw [dif_neg h]

/-- The maximum of the nine entries of `g` in the 3 × 3 window whose first entry is `(h, w)`, row by row. -/
def max9 (g : ℕ → ℕ → EReal) (h w : ℕ) : EReal :=
  max (max (max (max (max (max (max (max (g h w) (g h (w + 1))) (g h (w + 2))) (g (h + 1) w)) (g (h + 1) (w + 1)))
    (g (h + 1) (w + 2))) (g (h + 2) w)) (g (h + 2) (w + 1))) (g (h + 2) (w + 2))

/-- The pixel where it equals the maximum of its padded 3 × 3 neighbourhood, the padding value elsewhere. -/
def keep (img : Fin 128 → Fin 128 → EReal) (z : EReal) (h w : Fin 128) : EReal :=
  Scalar.select (FloatOps.cmpf (F := Ideal) (φ := .f32) .oeq (img h w) (max9 (padRead img z) h.val w.val)) (img h w) z

/-- Non-maximum suppression of a batch of 16 × 80 images: entry `(b, c, h, w)` is `keep` of image `(b, c)` at `(h, w)`. -/
def nms (x : (⟨4, ![16, 80, 128, 128]⟩ : Shape).Idx → EReal) (z : EReal) :
    (⟨4, ![16, 80, 128, 128]⟩ : Shape).Idx → EReal :=
  fun i => keep (fun p q => x (ValueIdx.ix4 (i 0) (i 1) p q)) z (i 2) (i 3)

/-- A left fold of `max` from `-∞` over nine values, first to last, is their chain of `max`es. -/
theorem foldl_max_nine {N : ℕ} (hN : N = 9) (E : Fin N → EReal) :
    (List.finRange N).foldl (fun r n => max r (E n)) ⊥
      = max (max (max (max (max (max (max (max (E ⟨0, by omega⟩) (E ⟨1, by omega⟩)) (E ⟨2, by omega⟩)) (E ⟨3, by omega⟩))
          (E ⟨4, by omega⟩)) (E ⟨5, by omega⟩)) (E ⟨6, by omega⟩)) (E ⟨7, by omega⟩)) (E ⟨8, by omega⟩) := by
  subst hN
  simp only [List.finRange_succ, List.finRange_zero, List.map_cons, List.map_nil, List.foldl_cons, List.foldl_nil,
    bot_sup_eq, max_bot_left]
  rfl

end Cert.Nms

end
-- ==== Proof.KernelBody.lean ====
/-
  What the kernel's body leaves in its output block, entry by entry.

  The body fills its 16 × 130 × 130 scratch with zeros and then stores the 16 × 128 × 128 input block `x` at offset
  `(0, 1, 1)`: afterwards entry `(b, y, z)` of the scratch is `x (b, y - 1, z - 1)` when `1 ≤ y, z ≤ 128` and zero on the
  border, that is, image `b` of the block read through its zero padding (`scratch_read`). The nine loads at offsets
  `(0, a, c)`, `a, c ∈ {0, 1, 2}`, read the padded entries `(h + a, w + c)` at position `(b, h, w)`; their chain of
  maxima is the local maximum, and the select keeps the pixel where it equals it (`out_apply`).
-/
import proofs.«138324_j39049842655966_2_alg».proof.Proof.Gen.KernelIdeal.Frame
import proofs.«138324_j39049842655966_2_alg».proof.Proof.Spec
import Idealize.ShloMosaic.Lib.Pipeline.Value
import Idealize.ShloMosaic.Lib.Tactic

noncomputable section

namespace Cert.KernelIdeal.Body

open Idealize.ShloMosaic Idealize.ShloMosaic.TcCoe Idealize.SL.Sem Idealize.ShloMosaic.ValueIdx
open Cert.KernelIdeal Cert.KernelIdeal.Gen

theorem hz3 : (![0, 0, 0] : Fin 3 → Nat) = fun _ => 0 := funext fun a => by fin_cases a <;> rfl

/-- The zero the body fills its scratch with and selects against. -/
abbrev zero : EReal := Ideal.ofBits .f32 0x00000000#32

/-- The rectangle of the scratch the block is stored through: 16 × 128 × 128 at offset `(0, 1, 1)`. -/
abbrev inner : Rect S16x130x130 := Rect.unit ![0, 1, 1] S16x128x128.size inb_S16x130x130_S16x128x128_0_1_1

/-- The rectangle the zero fill is stored through: the whole scratch. -/
abbrev whole : Rect S16x130x130 := Rect.unit ![0, 0, 0] S16x130x130.size inb_S16x130x130_S16x130x130_0_0_0

/-- The two stores into the scratch, the later first: the block at offset `(0, 1, 1)` over the zero fill. -/
abbrev stores (x : Vec Ideal S16x128x128 .f32) : List (View.Piece (Elt Ideal) S16x130x130 .f32) :=
  [(⟨inner, x⟩ : View.Piece (Elt Ideal) S16x130x130 .f32), (⟨whole, k0_pay2 (F := Ideal)⟩ : View.Piece (Elt Ideal) S16x130x130 .f32)]

/-- The rectangle a load at offset `(0, a, c)` reads through. -/
abbrev shifted (a c : Nat) (inb : ∀ d, (![0, a, c] : Fin 3 → Nat) d + S16x128x128.size d ≤ S16x130x130.size d) :
    Rect S16x130x130 := Rect.unit ![0, a, c] S16x128x128.size inb

/-- After the two stores, the scratch read through the 16 × 128 × 128 rectangle at offset `(0, a, c)` holds, at
    `(b, h, w)`, entry `(h + a, w + c)` of image `b` of the block padded with zeros. -/
theorem scratch_read (x : Vec Ideal S16x128x128 .f32) (a c : Nat)
    (inb : ∀ d, (![0, a, c] : Fin 3 → Nat) d + S16x128x128.size d ≤ S16x130x130.size d)
    (b : Fin 16) (h w : Fin 128) :
    View.canon (stores x) ((shifted a c inb).toLoadRect.idx (ix3 b h w))
      = Nms.padRead (fun p q => x (ix3 b p q)) zero (h.val + a) (w.val + c) := by
  by_cases hin : (1 ≤ h.val + a ∧ h.val + a - 1 < 128) ∧ (1 ≤ w.val + c ∧ w.val + c - 1 < 128)
  · -- inside: the index is the image of (b, h + a - 1, w + c - 1) under the later store's rectangle
    have e : (shifted a c inb).toLoadRect.idx (ix3 b h w)
        = inner.emb (ix3 b ⟨h.val + a - 1, hin.1.2⟩ ⟨w.val + c - 1, hin.2.2⟩) := by
      funext d
      apply Fin.ext
      match d with
      | ⟨0, _⟩ => rfl
      | ⟨1, _⟩ => show a + 1 * h.val = 1 + 1 * (h.val + a - 1); omega
      | ⟨2, _⟩ => show c + 1 * w.val = 1 + 1 * (w.val + c - 1); omega
    rw [e]
    refine (View.canon_cons_emb inner x [(⟨whole, k0_pay2 (F := Ideal)⟩ : View.Piece (Elt Ideal) S16x130x130 .f32)] _).trans ?_
    unfold Nms.padRead
    rw [dif_pos hin]
  · -- on the border: outside the later store's rectangle, inside the zero fill
    have hnot : (shifted a c inb).toLoadRect.idx (ix3 b h w) ∉ inner.set := by
      intro hmem
      have hall := (Rect.mem_set_unit (s := S16x130x130)).mp hmem
      apply hin
      have h1 : 1 ≤ a + 1 * h.val ∧ a + 1 * h.val < 1 + 128 := hall 1
      have h2 : 1 ≤ c + 1 * w.val ∧ c + 1 * w.val < 1 + 128 := hall 2
      omega
    refine (View.canon_cons_of_not_mem (⟨inner, x⟩ : View.Piece (Elt Ideal) S16x130x130 .f32)
      [(⟨whole, k0_pay2 (F := Ideal)⟩ : View.Piece (Elt Ideal) S16x130x130 .f32)] hnot).trans ?_
    refine (congrFun (View.canon_unit_zero (Val := Elt Ideal) (S := S16x130x130) (e := .f32) hz3
      inb_S16x130x130_S16x130x130_0_0_0 (k0_pay2 (F := Ideal))) _).trans ?_
    rw [Nms.padRead_outside _ _ _ _ hin]
    rfl

/-- The in-bounds evidence of the nine shifted loads, for any offsets at most two. -/
theorem shifted_inb (a c : Nat) (ha : a ≤ 2) (hc : c ≤ 2) :
    ∀ d, (![0, a, c] : Fin 3 → Nat) d + S16x128x128.size d ≤ S16x130x130.size d := fun d => by
  match d with
  | ⟨0, _⟩ => show 0 + 16 ≤ 16; omega
  | ⟨1, _⟩ => show a + 128 ≤ 130; omega
  | ⟨2, _⟩ => show c + 128 ≤ 130; omega

/-- WHAT THE BODY LEAVES in its output block: at `(b, h, w)` the pixel `x (b, h, w)` where it equals the maximum of its
    zero-padded 3 × 3 neighbourhood in image `b` of the input block, zero elsewhere. -/
theorem out_apply (c : Dev nD) (i : grid0.Coords) (a1 : Memref sig .tc .vmem S16x128x128 .f32) (h1 : a1.IsWhole)
    (a2 : Memref sig .tc .vmem S16x128x128 .f32) (h2 : a2.IsWhole) (a3 : Memref sig .tc .vmem S16x130x130 .f32)
    (h3 : a3.IsWhole) (x : Vec Ideal S16x128x128 .f32) (b : Fin 16) (h w : Fin 128) :
    out0_A_1 (F := Ideal) c i a1 h1 a2 h2 a3 h3 x (ix3 b h w) = Nms.keep (fun p q => x (ix3 b p q)) zero h w := by
  unfold out0_A_1
  rw [View.read_writes_eq_canon _ _ _ (cover0_A_1 c i a1 h1 a2 h2 a3 h3 x)]
  unfold kernelRun0_A
  dsimp only
  sl_unfold_words
  rw [View.canon_unit_zero hz3]
  simp only [View.readCov_eq_canon', View.readAt_eq_ld, h1.read_unread, View.ld_unit_zero (S := S16x128x128) hz3,
    k0_pay3, k0_pay4, shapeCast_self]
  have e00 : View.canon (stores x) ((shifted 0 0 inb_S16x130x130_S16x128x128_0_0_0).toLoadRect.idx (ix3 b h w))
      = Nms.padRead (fun p q => x (ix3 b p q)) zero h.val w.val := scratch_read x 0 0 _ b h w
  have e01 : View.canon (stores x) ((shifted 0 1 inb_S16x130x130_S16x128x128_0_0_1).toLoadRect.idx (ix3 b h w))
      = Nms.padRead (fun p q => x (ix3 b p q)) zero h.val (w.val + 1) := scratch_read x 0 1 _ b h w
  have e02 : View.canon (stores x) ((shifted 0 2 inb_S16x130x130_S16x128x128_0_0_2).toLoadRect.idx (ix3 b h w))
      = Nms.padRead (fun p q => x (ix3 b p q)) zero h.val (w.val + 2) := scratch_read x 0 2 _ b h w
  have e10 : View.canon (stores x) ((shifted 1 0 inb_S16x130x130_S16x128x128_0_1_0).toLoadRect.idx (ix3 b h w))
      = Nms.padRead (fun p q => x (ix3 b p q)) zero (h.val + 1) w.val := scratch_read x 1 0 _ b h w
  have e11 : View.canon (stores x) ((shifted 1 1 inb_S16x130x130_S16x128x128_0_1_1).toLoadRect.idx (ix3 b h w))
      = Nms.padRead (fun p q => x (ix3 b p q)) zero (h.val + 1) (w.val + 1) := scratch_read x 1 1 _ b h w
  have e12 : View.canon (stores x) ((shifted 1 2 inb_S16x130x130_S16x128x128_0_1_2).toLoadRect.idx (ix3 b h w))
      = Nms.padRead (fun p q => x (ix3 b p q)) zero (h.val + 1) (w.val + 2) := scratch_read x 1 2 _ b h w
  have e20 : View.canon (stores x) ((shifted 2 0 inb_S16x130x130_S16x128x128_0_2_0).toLoadRect.idx (ix3 b h w))
      = Nms.padRead (fun p q => x (ix3 b p q)) zero (h.val + 2) w.val := scratch_read x 2 0 _ b h w
  have e21 : View.canon (stores x) ((shifted 2 1 inb_S16x130x130_S16x128x128_0_2_1).toLoadRect.idx (ix3 b h w))
      = Nms.padRead (fun p q => x (ix3 b p q)) zero (h.val + 2) (w.val + 1) := scratch_read x 2 1 _ b h w
  have e22 : View.canon (stores x) ((shifted 2 2 inb_S16x130x130_S16x128x128_0_2_2).toLoadRect.idx (ix3 b h w))
      = Nms.padRead (fun p q => x (ix3 b p q)) zero (h.val + 2) (w.val + 2) := scratch_read x 2 2 _ b h w
  unfold Nms.keep Nms.max9
  rw [← e00, ← e01, ← e02, ← e10, ← e11, ← e12, ← e20, ← e21, ← e22]
  rfl

end Cert.KernelIdeal.Body

end
-- ==== Proof.KernelValue.lean ====
/-
  The kernel program's result as one function of its argument.

  @main reshapes the argument `f32[16, 80, 128, 128]` to 1280 images, the region writes block `t` of the result — images
  `16 t … 16 t + 15` — from block `t` of the images, and @main reshapes the result back. Block `t` of what the region
  leaves is non-maximum suppression of block `t` of the images (`flushed_eq`, from the body's `Body.out_apply`: image
  `b` of the block is image `16 t + b` of the array); the eighty blocks tile the array (`cover`), so the array ends
  holding non-maximum suppression of every image (`final`). The two reshapes match row-major positions: image `n` of
  the 1280 is image `(n / 80, n % 80)` of the argument (`head_apply`, `tail_apply`), so the result is
  `Nms.nms` of the argument (`result_eq`, `run`).
-/
import proofs.«138324_j39049842655966_2_alg».proof.Proof.KernelBody
import Idealize.ShloMosaic.Lib.Pipeline.Value
import Idealize.ShloMosaic.Lib.StableHlo.Run
import Idealize.ShloMosaic.Lib.Tactic
import Idealize.ShloMosaic.Lib.ValueIdx

noncomputable section

namespace Cert.KernelIdeal.Whole

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Body

variable (m : (ℓ : Loc nD τ sig) → Buf (Elt Ideal) ℓ) (ρ : Dev nD → PrngReg)

/-- Non-maximum suppression of each of the 1280 images. -/
def G3 (X : S1280x128x128.Idx → EReal) : S1280x128x128.Idx → EReal :=
  fun i => Nms.keep (fun p q => X (ix3 (i 0) p q)) zero (i 1) (i 2)

/-- The printed index maps over the grid: both windows' block index at point `t` is `(t, 0, 0)`. -/
theorem idx_facts : ∀ t : Fin cfg0.N, win0_0.index t (0 : Fin 3) = t.val ∧ win0_0.index t (1 : Fin 3) = 0
    ∧ win0_0.index t (2 : Fin 3) = 0 ∧ win0_1.index t (0 : Fin 3) = t.val ∧ win0_1.index t (1 : Fin 3) = 0
    ∧ win0_1.index t (2 : Fin 3) = 0 :=
  (by decide +kernel : ∀ t : Fin grid0.N, _)

/-- The body's output block is non-maximum suppression of the images of `X` its input block holds: when the input
    block is images `16 k … 16 k + 15` of `X`, entry `j` of the output is `G3 X` at image `16 k + j₀`. -/
theorem block_eq (c : Dev nD) (i : grid0.Coords) (a1 : Memref sig .tc .vmem S16x128x128 .f32) (h1 : a1.IsWhole)
    (a2 : Memref sig .tc .vmem S16x128x128 .f32) (h2 : a2.IsWhole) (a3 : Memref sig .tc .vmem S16x130x130 .f32)
    (h3 : a3.IsWhole) (X : S1280x128x128.Idx → EReal) (x : Vec Ideal S16x128x128 .f32) (k : Nat)
    (hk : k * 16 + 16 ≤ 1280)
    (hx : ∀ (b : Fin 16) (p q : Fin 128), x (ix3 b p q) = X (ix3 ⟨k * 16 + b.val, by have := b.isLt; omega⟩ p q))
    (j : S16x128x128.Idx) :
    out0_A_1 (F := Ideal) c i a1 h1 a2 h2 a3 h3 x j
      = G3 X (ix3 ⟨k * 16 + (j 0).val, by have : (j 0).val < 16 := (j 0).isLt; omega⟩ (j 1) (j 2)) := by
  obtain ⟨b, h, w, rfl⟩ : ∃ (b : Fin 16) (h w : Fin 128), j = ix3 b h w := ⟨j 0, j 1, j 2, eq_ix3 j⟩
  rw [out_apply]
  show Nms.keep (fun p q => x (ix3 b p q)) zero h w
    = Nms.keep (fun p q => X (ix3 ⟨k * 16 + b.val, by have := b.isLt; omega⟩ p q)) zero h w
  congr 1
  funext p q
  exact hx b p q

/-- WHAT POINT `t` WRITES BACK is block `t` of non-maximum suppression of the images as the region finds them. -/
theorem flushed_eq (c : Dev nD) (t : Fin cfg0.N) :
    (dats m 0 c).flushed 1 t = ((cfg0.win 1).blk t).view.read (Elt Ideal) (G3 (V m c main_v0)) := by
  show (cfg0.win 1).cut (grid0.coords t) ((dats m 0 c).after 1 t) = _
  rw [after0_1]
  unfold outsAt0
  obtain ⟨e0, e1, e2, e3, e4, e5⟩ := idx_facts t
  have hN : cfg0.N = 80 := N_0
  have ht : t.val * 16 + 16 ≤ 1280 := by have := t.isLt; omega
  funext j
  refine (block_eq c _ _ _ _ _ _ _ (V m c main_v0) (iblk m c 0 t) t.val ht (fun b p q => ?_) j).trans ?_
  · show V m c main_v0 (((cfg0.win 0).blk t).view.emb (ix3 b p q)) = V m c main_v0 (ix3 ⟨t.val * 16 + b.val, _⟩ p q)
    refine congrArg (V m c main_v0) (funext fun a => Fin.ext ?_)
    match a with
    | ⟨0, _⟩ => show win0_0.index t (0 : Fin 3) * 16 + 1 * b.val = t.val * 16 + b.val; rw [e0]; omega
    | ⟨1, _⟩ => show win0_0.index t (1 : Fin 3) * 128 + 1 * p.val = p.val; rw [e1]; omega
    | ⟨2, _⟩ => show win0_0.index t (2 : Fin 3) * 128 + 1 * q.val = q.val; rw [e2]; omega
  · show G3 (V m c main_v0) (ix3 ⟨t.val * 16 + (j 0).val, _⟩ (j 1) (j 2))
      = G3 (V m c main_v0) (((cfg0.win 1).blk t).view.emb j)
    refine congrArg (G3 (V m c main_v0)) (funext fun a => Fin.ext ?_)
    match a with
    | ⟨0, _⟩ => show t.val * 16 + (j 0).val = win0_1.index t (0 : Fin 3) * 16 + 1 * (j 0).val; rw [e3]; omega
    | ⟨1, _⟩ => show (j 1).val = win0_1.index t (1 : Fin 3) * 128 + 1 * (j 1).val; rw [e4]; omega
    | ⟨2, _⟩ => show (j 2).val = win0_1.index t (2 : Fin 3) * 128 + 1 * (j 2).val; rw [e5]; omega

/-- An index of the result array is in point `t`'s block iff each coordinate is in the block's range on its axis. -/
theorem mem_blk (t : Fin cfg0.N) (i : S1280x128x128.Idx) :
    i ∈ ((cfg0.win 1).blk t).view.set ↔ ∀ a : Fin 3, win0_1.index t a * S16x128x128.size a ≤ (i a).val
      ∧ (i a).val < win0_1.index t a * S16x128x128.size a + S16x128x128.size a := by
  show i ∈ ((View.whole main_v1).slice (win0_1.rect t)).set ↔ _
  rw [View.set_slice_whole, Rect.mem_set_unit]
  exact Iff.rfl

/-- The eighty blocks tile the array: image `n` is in the block of point `n / 16`. -/
theorem cover (i : S1280x128x128.Idx) :
    ∃ t : Fin cfg0.N, (cfg0.win 1).flush t = true ∧ i ∈ ((cfg0.win 1).blk t).view.set := by
  have hN : cfg0.N = 80 := N_0
  have hi0 : (i 0).val < 1280 := (i 0).isLt
  have hi1 : (i 1).val < 128 := (i 1).isLt
  have hi2 : (i 2).val < 128 := (i 2).isLt
  have hlt : (i 0).val / 16 < cfg0.N := by omega
  obtain ⟨e0, e1, e2, e3, e4, e5⟩ := idx_facts ⟨(i 0).val / 16, hlt⟩
  have e3' : win0_1.index ⟨(i 0).val / 16, hlt⟩ (0 : Fin 3) = (i 0).val / 16 := e3
  refine ⟨⟨(i 0).val / 16, hlt⟩, flush0_1 _, ?_⟩
  rw [mem_blk]
  intro a
  match a with
  | ⟨0, _⟩ =>
    show win0_1.index ⟨(i 0).val / 16, hlt⟩ (0 : Fin 3) * 16 ≤ (i 0).val
      ∧ (i 0).val < win0_1.index ⟨(i 0).val / 16, hlt⟩ (0 : Fin 3) * 16 + 16
    rw [e3']; omega
  | ⟨1, _⟩ =>
    show win0_1.index ⟨(i 0).val / 16, hlt⟩ (1 : Fin 3) * 128 ≤ (i 1).val
      ∧ (i 1).val < win0_1.index ⟨(i 0).val / 16, hlt⟩ (1 : Fin 3) * 128 + 128
    rw [e4]; omega
  | ⟨2, _⟩ =>
    show win0_1.index ⟨(i 0).val / 16, hlt⟩ (2 : Fin 3) * 128 ≤ (i 2).val
      ∧ (i 2).val < win0_1.index ⟨(i 0).val / 16, hlt⟩ (2 : Fin 3) * 128 + 128
    rw [e5]; omega

/-- THE RESULT ARRAY of the region after the run: non-maximum suppression of every image. -/
theorem final (c : Dev nD) : (dats m 0 c).arrAt 1 cfg0.N = G3 (V m c main_v0) :=
  (dats m 0 c).arrAt_eq_of_cover 1 (G3 (V m c main_v0)) (fun t _ => flushed_eq m c t) cover

/-- The images as the region finds them: the argument, reshaped. -/
theorem head (c : Dev nD) : (V m c main_v0 : S1280x128x128.Idx → EReal)
    = shapeCast S1280x128x128 (m ((c : Thread nD τ).loc main_arg0)) shapeCasts_S16x80x128x128_S1280x128x128 := by
  show StableHlo.after hostOps0 (fun b => m (c, b)) (Proc.devRef .tc main_v0) = _
  after_results
  rfl

/-- The reshape to 1280 images read at an index: image `80 b + c` is image `(b, c)` of the argument. -/
theorem head_apply (x : S16x80x128x128.Idx → EReal) (b : Fin 16) (c : Fin 80) (p q : Fin 128) :
    shapeCast S1280x128x128 x shapeCasts_S16x80x128x128_S1280x128x128
        (ix3 ⟨b.val * 80 + c.val, by have := b.isLt; have := c.isLt; omega⟩ p q) = x (ix4 b c p q) := by
  refine shapeCast_apply x _ _ (ix4 b c p q) ?_
  rw [Shape.rowMajor_val_four, Shape.rowMajor_val_three]
  rfl

/-- The reshape back read at an index: image `(b, c)` of the result is image `80 b + c` of the 1280. -/
theorem tail_apply (Y : S1280x128x128.Idx → EReal) (b : Fin 16) (c : Fin 80) (p q : Fin 128) :
    shapeCast S16x80x128x128 Y shapeCasts_S1280x128x128_S16x80x128x128 (ix4 b c p q)
      = Y (ix3 ⟨b.val * 80 + c.val, by have := b.isLt; have := c.isLt; omega⟩ p q) := by
  refine shapeCast_apply Y _ _ (ix3 ⟨b.val * 80 + c.val, by have := b.isLt; have := c.isLt; omega⟩ p q) ?_
  rw [Shape.rowMajor_val_four, Shape.rowMajor_val_three]
  rfl

/-- What @main's last line leaves in the result: the region's result array, reshaped. -/
theorem tail (c : Dev nD) : Pipeline.afterTail₀ cfgs (dats m) 0 (V0 m) [hostOps1] c main_v2
    = shapeCast S16x80x128x128 ((dats m 0 c).arrAt 1 cfg0.N) shapeCasts_S1280x128x128_S16x80x128x128 := by
  unfold Pipeline.afterTail₀
  show StableHlo.after hostOps1 _ (Proc.devRef .tc main_v2) = _
  after_results
  have e : Pipeline.withArrays (cfgs 0).spec c (V0 m c) (fun w => (dats m 0 c).arrAt w (cfgs 0).N)
      (Proc.devRef .tc main_v1) = (dats m 0 c).arrAt 1 cfg0.N :=
    Pipeline.withArrays_arr spec0 launch0.win.arr_inj c _ _ 1
  exact congrArg (fun Y => shapeCast S16x80x128x128 Y shapeCasts_S1280x128x128_S16x80x128x128) e

/-- THE RESULT of the kernel program: non-maximum suppression of its argument. -/
theorem result_eq (c : Dev nD) : Pipeline.afterTail₀ cfgs (dats m) 0 (V0 m) [hostOps1] c main_v2
    = Nms.nms (m ((c : Thread nD τ).loc main_arg0)) zero := by
  rw [tail, final, head]
  funext i
  obtain ⟨b, c', h, w, rfl⟩ : ∃ (b : Fin 16) (c' : Fin 80) (h w : Fin 128), i = ix4 b c' h w :=
    ⟨i 0, i 1, i 2, i 3, eq_ix4 i⟩
  rw [tail_apply]
  show Nms.keep (fun p q => shapeCast S1280x128x128 (m ((c : Thread nD τ).loc main_arg0))
      shapeCasts_S16x80x128x128_S1280x128x128 (ix3 ⟨b.val * 80 + c'.val, _⟩ p q)) zero h w
    = Nms.keep (fun p q => m ((c : Thread nD τ).loc main_arg0) (ix4 b c' p q)) zero h w
  congr 1
  funext p q
  exact head_apply _ b c' p q

/-- The run, read: every weakly fair execution ends with the result at non-maximum suppression of the argument and
    the argument unchanged. -/
theorem run : θ_run defs (onTc (τ := τ) (main (F := Ideal))) ⟨m, fun _ => 0, ρ⟩ fun r => ∀ c : Dev nD,
      r.2.mem ((c : Thread nD τ).loc main_v2) = Nms.nms (m ((c : Thread nD τ).loc main_arg0)) zero
      ∧ r.2.mem ((c : Thread nD τ).loc main_arg0) = m ((c : Thread nD τ).loc main_arg0) :=
  (θ_run defs _ _).mono (fun r h c =>
    ⟨((h c).2 main_v2 (Pipeline.mem_restRefs_of main_v2 (by decide) (by decide))).trans (result_eq m c),
     ((h c).2 main_arg0 (Pipeline.mem_restRefs_of main_arg0 (by decide) (by decide))).trans (W_main_arg0 m (dats m) c)⟩)
    (run_main m ρ)

end Cert.KernelIdeal.Whole

end
-- ==== Proof.LibReduceWindow.lean ====
/-
  A host `reduce_window` with no padding, read at an index.

  `Host.reduceWindow f window strides lo hi x init` at result index `j` folds `f` from the initial value over the
  positions `n` of the window in row-major order, taking the operand where the position `j · stride + n` (less the low
  padding) is inside it and the initial value where it is padding. With no low and no high padding every position is
  inside the operand (the result's extent on each axis is `(size − window) / stride + 1`, so
  `j · stride + n < size`): the value is the fold of the operand's entries at `windowIdx j n`, no case split left
  (`reduceWindow_apply_of_no_padding`).
-/
import Idealize.ShloMosaic.PureOps

noncomputable section

namespace Cert.LibReduceWindow

open Idealize.ShloMosaic

variable {s t : Shape} {α : Type}

/-- With no padding, position `n` of the window at result index `j` lies inside the operand on every axis. -/
theorem window_pos_lt (window strides lo hi : Fin s.rank → Nat) (hlo : ∀ a, lo a = 0) (hhi : ∀ a, hi a = 0)
    (h : s.ReduceWindows window strides lo hi t) (j : t.Idx) (n : Fin (⟨s.rank, window⟩ : Shape).numel) (a : Fin s.rank) :
    (j (a.cast h.1.symm)).val * strides a + ((⟨s.rank, window⟩ : Shape).rowMajor.symm n a).val < s.size a := by
  obtain ⟨hpos, hle, hsz⟩ := h.2 a
  have hw : ((⟨s.rank, window⟩ : Shape).rowMajor.symm n a).val < window a :=
    ((⟨s.rank, window⟩ : Shape).rowMajor.symm n a).isLt
  have hj : (j (a.cast h.1.symm)).val < (lo a + s.size a + hi a - window a) / strides a + 1 :=
    (j (a.cast h.1.symm)).isLt.trans_eq hsz
  rw [hlo a, hhi a] at hj hle
  have h1 : (j (a.cast h.1.symm)).val ≤ (0 + s.size a + 0 - window a) / strides a := Nat.lt_succ_iff.mp hj
  have h2 : (j (a.cast h.1.symm)).val * strides a ≤ (0 + s.size a + 0 - window a) / strides a * strides a :=
    Nat.mul_le_mul_right _ h1
  have h3 : (0 + s.size a + 0 - window a) / strides a * strides a ≤ 0 + s.size a + 0 - window a :=
    Nat.div_mul_le_self _ _
  omega

/-- The operand index of position `n` of the window at result index `j`: on each axis `j · stride` plus the
    position's coordinate. -/
def windowIdx (window strides lo hi : Fin s.rank → Nat) (hlo : ∀ a, lo a = 0) (hhi : ∀ a, hi a = 0)
    (h : s.ReduceWindows window strides lo hi t) (j : t.Idx) (n : Fin (⟨s.rank, window⟩ : Shape).numel) : s.Idx :=
  fun a => ⟨(j (a.cast h.1.symm)).val * strides a + ((⟨s.rank, window⟩ : Shape).rowMajor.symm n a).val,
    window_pos_lt window strides lo hi hlo hhi h j n a⟩

theorem windowIdx_val (window strides lo hi : Fin s.rank → Nat) (hlo : ∀ a, lo a = 0) (hhi : ∀ a, hi a = 0)
    (h : s.ReduceWindows window strides lo hi t) (j : t.Idx) (n : Fin (⟨s.rank, window⟩ : Shape).numel) (a : Fin s.rank) :
    (windowIdx window strides lo hi hlo hhi h j n a).val
      = (j (a.cast h.1.symm)).val * strides a + ((⟨s.rank, window⟩ : Shape).rowMajor.symm n a).val := rfl

/-- A `reduce_window` with no padding at index `j` is the left fold of `f`, from the initial value, over the operand's
    entries at the window's positions in row-major order. -/
theorem reduceWindow_apply_of_no_padding {u : Shape} (f : α → α → α) (window strides lo hi : Fin s.rank → Nat)
    (hlo : ∀ a, lo a = 0) (hhi : ∀ a, hi a = 0) (x : s.Idx → α) (init : u.Idx → α)
    (h : s.ReduceWindows window strides lo hi t) (hu : 0 < u.numel) (j : t.Idx) :
    Host.reduceWindow f window strides lo hi x init h hu j
      = (List.finRange (⟨s.rank, window⟩ : Shape).numel).foldl
          (fun r n => f r (x (windowIdx window strides lo hi hlo hhi h j n))) (init (Shape.Idx.first hu)) := by
  unfold Host.reduceWindow
  dsimp only
  congr 1
  funext r n
  have hin : ∀ a, lo a ≤ (j (a.cast h.1.symm)).val * strides a + ((⟨s.rank, window⟩ : Shape).rowMajor.symm n a).val
      ∧ (j (a.cast h.1.symm)).val * strides a + ((⟨s.rank, window⟩ : Shape).rowMajor.symm n a).val - lo a < s.size a :=
    fun a => by
      have := window_pos_lt window strides lo hi hlo hhi h j n a
      rw [hlo a]
      exact ⟨Nat.zero_le _, by rw [Nat.sub_zero]; exact this⟩
  rw [dif_pos hin]
  congr 2
  funext a
  apply Fin.ext
  show (j (a.cast h.1.symm)).val * strides a + ((⟨s.rank, window⟩ : Shape).rowMajor.symm n a).val - lo a = _
  rw [hlo a, Nat.sub_zero]
  rfl

end Cert.LibReduceWindow

end
-- ==== Proof.RefValue.lean ====
/-
  The reference program read as one function of its argument array.

  The reference pads every 128 × 128 image with one position of zero on each side, takes at every pixel the maximum
  of the 3 × 3 window of the padded image starting there — a left fold of `max` from `-∞` over the window's nine
  positions in row-major order —, compares the pixel with it and keeps the pixel where they are equal, zero elsewhere.
  Read at an index this is `Nms.nms` of the argument: the padded array at `(b, c, y, z)` is `Nms.padRead` of image
  `(b, c)` (`pad_read`), window position `n` of pixel `(h, w)` is padded entry `(h + n / 3, w + n % 3)`
  (`window_entry`), and the fold from `-∞` is the chain of maxima (`Nms.foldl_max_nine`).
-/
import proofs.«138324_j39049842655966_2_alg».proof.Proof.Gen.ReferenceIdeal.Read
import proofs.«138324_j39049842655966_2_alg».proof.Proof.Spec
import proofs.«138324_j39049842655966_2_alg».proof.Proof.LibReduceWindow
import Idealize.ShloMosaic.Lib.KernelVsHost

noncomputable section

namespace Cert.RefValue

open Idealize.ShloMosaic Idealize.ShloMosaic.TcCoe Idealize.SL.Sem Idealize.ShloMosaic.ValueIdx
open Cert.ReferenceIdeal Cert.ReferenceIdeal.Gen Cert.ReferenceIdeal.Read

/-- The zero the reference pads with and selects against. -/
abbrev zero : EReal := Ideal.ofBits .f32 0x00000000#32

/-- The padded array at `(b, c, y, z)` is entry `(y, z)` of image `(b, c)` padded with zeros. -/
theorem pad_read (x : S16x80x128x128.Idx → EReal) (b : Fin 16) (c : Fin 80) (y z : Fin 130) :
    val_main_v0 (F := Ideal) x (ix4 b c y z) = Nms.padRead (fun p q => x (ix4 b c p q)) zero y.val z.val := by
  unfold val_main_v0
  by_cases hin : (1 ≤ y.val ∧ y.val - 1 < 128) ∧ (1 ≤ z.val ∧ z.val - 1 < 128)
  · rw [pad_apply_of_inside (s := S16x80x128x128) (t := S16x80x130x130) ![0, 0, 1, 1] ![0, 0, 1, 1] ![0, 0, 0, 0] x _ _ _ (ix4 b c y z)
      (ix4 b c ⟨y.val - 1, hin.1.2⟩ ⟨z.val - 1, hin.2.2⟩) (fun a => by
        match a with
        | ⟨0, _⟩ => show b.val = 0 + b.val * (0 + 1); omega
        | ⟨1, _⟩ => show c.val = 0 + c.val * (0 + 1); omega
        | ⟨2, _⟩ => show y.val = 1 + (y.val - 1) * (0 + 1); omega
        | ⟨3, _⟩ => show z.val = 1 + (z.val - 1) * (0 + 1); omega)]
    unfold Nms.padRead
    rw [dif_pos hin]
  · rw [Nms.padRead_outside _ _ _ _ hin]
    by_cases hy : 1 ≤ y.val ∧ y.val - 1 < 128
    · have hz : ¬(1 ≤ z.val ∧ z.val - 1 < 128) := fun hz => hin ⟨hy, hz⟩
      rw [pad_apply_of_not_inside (s := S16x80x128x128) (t := S16x80x130x130) ![0, 0, 1, 1] ![0, 0, 1, 1] ![0, 0, 0, 0] x _ _ _ (ix4 b c y z) 3
        (by show ¬(1 ≤ z.val ∧ (z.val - 1) % (0 + 1) = 0 ∧ (z.val - 1) / (0 + 1) < 128); omega)]
      rfl
    · rw [pad_apply_of_not_inside (s := S16x80x128x128) (t := S16x80x130x130) ![0, 0, 1, 1] ![0, 0, 1, 1] ![0, 0, 0, 0] x _ _ _ (ix4 b c y z) 2
        (by show ¬(1 ≤ y.val ∧ (y.val - 1) % (0 + 1) = 0 ∧ (y.val - 1) / (0 + 1) < 128); omega)]
      rfl

/-- The 1 × 1 × 3 × 3 window as a shape: its nine positions are numbered row-major. -/
abbrev win : Shape := ⟨4, ![1, 1, 3, 3]⟩

theorem win_numel : win.numel = 9 := by decide

/-- Position `n` of the window has coordinates `(0, 0, n / 3, n % 3)`. -/
theorem win_coords : ∀ n : Fin win.numel, (win.rowMajor.symm n 0).val = 0 ∧ (win.rowMajor.symm n 1).val = 0
    ∧ (win.rowMajor.symm n 2).val = n.val / 3 ∧ (win.rowMajor.symm n 3).val = n.val % 3 := by decide

/-- The reference's `reduce_window` has no padding of its own (the padding is the `pad` before it). -/
theorem no_pad : ∀ a : Fin 4, (![0, 0, 0, 0] : Fin 4 → Nat) a = 0 := by decide

/-- Position `n` of the window at pixel `(h, w)` of image `(b, c)` reads padded entry `(h + n / 3, w + n % 3)` of that
    image. -/
theorem window_entry (x : S16x80x128x128.Idx → EReal) (b : Fin 16) (c : Fin 80) (h w : Fin 128) (n : Fin win.numel) :
    val_main_v0 (F := Ideal) x (LibReduceWindow.windowIdx (s := S16x80x130x130) (t := S16x80x128x128) ![1, 1, 3, 3] ![1, 1, 1, 1]
        ![0, 0, 0, 0] ![0, 0, 0, 0] no_pad no_pad
        reduceWindows_S16x80x130x130_S16x80x128x128_w1s1p0_0_w1s1p0_0_w3s1p0_0_w3s1p0_0 (ix4 b c h w) n)
      = Nms.padRead (fun p q => x (ix4 b c p q)) zero (h.val + n.val / 3) (w.val + n.val % 3) := by
  obtain ⟨r0, r1, r2, r3⟩ := win_coords n
  have hn : n.val < 9 := n.isLt.trans_eq win_numel
  have hh := h.isLt
  have hw := w.isLt
  have e : LibReduceWindow.windowIdx (s := S16x80x130x130) (t := S16x80x128x128) ![1, 1, 3, 3] ![1, 1, 1, 1]
        ![0, 0, 0, 0] ![0, 0, 0, 0] no_pad no_pad
        reduceWindows_S16x80x130x130_S16x80x128x128_w1s1p0_0_w1s1p0_0_w3s1p0_0_w3s1p0_0 (ix4 b c h w) n
      = ix4 b c ⟨h.val + n.val / 3, by omega⟩ ⟨w.val + n.val % 3, by omega⟩ := by
    funext a
    apply Fin.ext
    match a with
    | ⟨0, _⟩ => show b.val * 1 + (win.rowMajor.symm n 0).val = b.val; rw [r0]; omega
    | ⟨1, _⟩ => show c.val * 1 + (win.rowMajor.symm n 1).val = c.val; rw [r1]; omega
    | ⟨2, _⟩ => show h.val * 1 + (win.rowMajor.symm n 2).val = h.val + n.val / 3; rw [r2]; omega
    | ⟨3, _⟩ => show w.val * 1 + (win.rowMajor.symm n 3).val = w.val + n.val % 3; rw [r3]; omega
  rw [e, pad_read]

/-- The reference's local maximum at pixel `(h, w)` of image `(b, c)`: the fold of `max` from `-∞` over the window is the
    chain of maxima of the nine padded entries. -/
theorem local_max (x : S16x80x128x128.Idx → EReal) (b : Fin 16) (c : Fin 80) (h w : Fin 128) :
    val_main_v2 (F := Ideal) x (ix4 b c h w)
      = Nms.max9 (Nms.padRead (fun p q => x (ix4 b c p q)) zero) h.val w.val := by
  unfold val_main_v2
  refine (LibReduceWindow.reduceWindow_apply_of_no_padding (s := S16x80x130x130) (t := S16x80x128x128)
    (FloatOps.maximumf (F := Ideal) (φ := .f32)) ![1, 1, 3, 3] ![1, 1, 1, 1] ![0, 0, 0, 0] ![0, 0, 0, 0] no_pad no_pad
    (val_main_v0 (F := Ideal) x) (val_main_v1 (F := Ideal))
    reduceWindows_S16x80x130x130_S16x80x128x128_w1s1p0_0_w1s1p0_0_w3s1p0_0_w3s1p0_0 h_S_ (ix4 b c h w)).trans ?_
  have hv : val_main_v1 (F := Ideal) (Shape.Idx.first h_S_) = (⊥ : EReal) := by
    rw [val_main_v1_apply, val_main_cst_0_apply]
    simp [Ideal.ofBits, Ideal.ieee]
  rw [hv]
  simp only [window_entry, Ideal.maximumf_def]
  refine (Nms.foldl_max_nine win_numel _).trans ?_
  rfl

/-- THE REFERENCE IS non-maximum suppression of its argument, index by index. -/
theorem ref_eq (x : S16x80x128x128.Idx → EReal) : val_main_v4 (F := Ideal) x = Nms.nms x zero := by
  funext i
  obtain ⟨b, c, h, w, rfl⟩ : ∃ (b : Fin 16) (c : Fin 80) (h w : Fin 128), i = ix4 b c h w :=
    ⟨i 0, i 1, i 2, i 3, eq_ix4 i⟩
  rw [val_main_v4_apply, val_main_v3_apply, local_max, val_main_call1_v1_apply, val_main_call1_v0_apply,
    val_main_cst_1_apply]
  rfl

end Cert.RefValue

end
-- ==== Proof.lean ====
/-
  The kernel and its reference are the same function of their argument over the extended reals.

  Both programs take `points : f32[16, 80, 128, 128]`, 1280 images of 128 × 128 pixels, and return, for every pixel, the
  pixel itself where it equals the maximum of the 3 × 3 neighbourhood of its image padded with one ring of zeros, and
  zero elsewhere (`Nms.nms`, Proof/Spec.lean).

  The kernel does it sixteen images at a time: it zero-fills a 16 × 130 × 130 scratch, stores the block in its interior,
  and chains eight `max`es over the nine shifted 16 × 128 × 128 reads of the scratch (Proof/KernelBody.lean); its eighty
  blocks tile the 1280 images, and the two reshapes around the region match row-major positions
  (Proof/KernelValue.lean). The reference pads with zeros and folds `max` from `-∞` over each 3 × 3 window in row-major
  order (Proof/RefValue.lean, over Proof/LibReduceWindow.lean). The two local maxima are the same chain of the same
  nine entries in the same order, `-∞` being the least extended real; the comparison and the select are one
  operation on both sides and the zero is the same word. No law used needs finite inputs, so the precondition is
  never opened.

  The ideal pass rewrote nothing: `preserves` is `True`. The frames of the two kernel programs are the generated
  ones; the reference's frame is its generated run with the result dropped.
-/
import proofs.«138324_j39049842655966_2_alg».proof.Defs
import proofs.«138324_j39049842655966_2_alg».proof.Proof.Gen.Kernel
import proofs.«138324_j39049842655966_2_alg».proof.Proof.Gen.Kernel.Skeleton
import proofs.«138324_j39049842655966_2_alg».proof.Proof.Gen.Kernel.Launch
import proofs.«138324_j39049842655966_2_alg».proof.Proof.Gen.Kernel.Points
import proofs.«138324_j39049842655966_2_alg».proof.Proof.Gen.Kernel.Frame
import proofs.«138324_j39049842655966_2_alg».proof.Proof.Gen.KernelIdeal
import proofs.«138324_j39049842655966_2_alg».proof.Proof.Gen.KernelIdeal.Skeleton
import proofs.«138324_j39049842655966_2_alg».proof.Proof.Gen.KernelIdeal.Launch
import proofs.«138324_j39049842655966_2_alg».proof.Proof.Gen.KernelIdeal.Points
import proofs.«138324_j39049842655966_2_alg».proof.Proof.Gen.KernelIdeal.Frame
import proofs.«138324_j39049842655966_2_alg».proof.Proof.Gen.ReferenceIdeal
import proofs.«138324_j39049842655966_2_alg».proof.Proof.Gen.ReferenceIdeal.Run
import proofs.«138324_j39049842655966_2_alg».proof.Proof.Gen.ReferenceIdeal.Read
import proofs.«138324_j39049842655966_2_alg».proof.Proof.Gen.Pre_finite_inputs
import proofs.«138324_j39049842655966_2_alg».proof.Proof.KernelValue
import proofs.«138324_j39049842655966_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Run from memories that agree on the argument, both programs end with the result at non-maximum suppression of
    that argument: the kernel by `Whole.run`, the reference by its generated run and `RefValue.ref_eq`. -/
theorem algebraic : Cert.algebraic_KernelIdeal_ReferenceIdeal := by
  intro m ρ m' ρ' _ hagree
  refine ⟨fun c => Cert.Nms.nms (m ((c.tc : Thread Cert.KernelIdeal.nD Cert.KernelIdeal.τ).loc Cert.KernelIdeal.main_arg0))
      Cert.RefValue.zero, Cert.KernelIdeal.Whole.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v4_eq, Cert.RefValue.ref_eq, hagree c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
